-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S64x512x512 : Shape := ⟨3, ![64, 512, 512]⟩
abbrev S1x1 : Shape := ⟨2, ![1, 1]⟩
abbrev S8x512x512 : Shape := ⟨3, ![8, 512, 512]⟩
abbrev S1x8x512x512 : Shape := ⟨4, ![1, 8, 512, 512]⟩
abbrev S1 : Shape := ⟨1, ![1]⟩
abbrev S1x1x1x1 : Shape := ⟨4, ![1, 1, 1, 1]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x512x512, .f32⟩
  | .hbm, ⟨3, _⟩ => ⟨S64x512x512, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S1x1, .f32⟩
  | .local _ .vmem, ⟨5, _⟩ => ⟨S1x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x1x512x512_S64x512x512 : S64x1x512x512.ShapeCasts S64x512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  shapeCasts_S8x512x512_S1x8x512x512 : S8x512x512.ShapeCasts S1x8x512x512
  reduces_S1x8x512x512_S1 : S1x8x512x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x512x512.size a
  hwx0_0 : ∀ i : grid0.Coords, EltTy.bits .f32 = 32 ∨ (Rect.block (s := S64x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S64x512x512.size a
  hwx0_1 : ∀ i : grid0.Coords, EltTy.bits .f32 = 32 ∨ (Rect.block (s := S64x512x512) S8x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S64x512x512 : Shape := ⟨3, ![64, 512, 512]⟩
abbrev S_ : Shape := ⟨0, ![]⟩
abbrev S64 : Shape := ⟨1, ![64]⟩

abbrev nBuf : Space → Nat
  | .hbm => 16
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x512x512, .f32⟩
  | .hbm, ⟨3, _⟩ => ⟨S64x512x512, .f32⟩
  | .hbm, ⟨4, _⟩ => ⟨S64x512x512, .f32⟩
  | .hbm, ⟨5, _⟩ => ⟨S64x512x512, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  shapeCasts_S64x1x512x512_S64x512x512 : S64x1x512x512.ShapeCasts S64x512x512
  reducesTo_S64x512x512_S64_d1_2 : S64x512x512.ReducesTo [1, 2] S64
  h_S_ : 0 < S_.numel
  bcast_S_S64 : S_.BroadcastsInDim S64 (![] : Fin 0 → Fin S64.rank)
  reducesTo_S64_S_d0 : S64.ReducesTo [0] S_

variable [Facts₀]

class Facts : Prop extends Facts₀ where

variable [Facts]
-- ==== Proof.KCases.lean ====
/-
  One step of the accumulation, case by case.

  The kernel keeps a running sum in a one-word accumulator that lives across the eight grid steps, and copies it to
  its one-word output block at every step.  At the first step it first stores zero in the accumulator; at every step
  it then adds to the accumulator the sum of the squared differences of the two input tiles, and stores the
  accumulator's new contents in the output block.

  `step x0 x1 a` is the accumulator after a step that found it at `a` and the tiles at `x0`, `x1`; `zero` is what the
  reset stores.  This module reads what the two cases of the body (first step, later step) leave in the accumulator
  and in the output block: in both cases and in both buffers it is `step` of the tiles and of the accumulator before
  — `zero` at the first step, the previous contents afterwards.  Every load and store of the body goes through the
  whole buffer, so a store leaves its value and a load after it reads that value back.
-/
import proofs.«159642_j74844100100229_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after the reset: the zero word. -/
abbrev zero : FVec F S1x1 .f32 := k0_pay1

/-- The accumulator after one step from `a` over the tiles `x0`, `x1`. -/
abbrev step (x0 x1 : Vec F S8x512x512 .f32) (a : Vec F S1x1 .f32) : FVec F S1x1 .f32 := k0_pay2 x0 x1 a

/-- A later step leaves `step` of the tiles and the previous contents in the accumulator. -/
theorem scratch_B (c : Dev nD) (i : grid0.Coords) (a1 : Memref sig .tc .vmem S8x512x512 .f32) (h1 : a1.IsWhole)
    (a2 : Memref sig .tc .vmem S8x512x512 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S8x512x512 .f32) (xs : Vec F S1x1 .f32) :
    sout0_B_0 c i a1 h1 a2 h2 a3 h3 a4 h4 hc x0 x1 xs = step x0 x1 xs := by
  unfold sout0_B_0
  rw [View.read_writes_eq_canon _ _ _ (scover0_B_0 c i a1 h1 a2 h2 a3 h3 a4 h4 hc x0 x1 xs)]
  unfold kernelRun0_B
  dsimp only
  sl_unfold_words
  rw [View.canon_unit_zero (S := S1x1) hz2]
  simp only [View.readAt_eq_ld, h1.read_unread, h2.read_unread, h4.read_unread,
    View.ld_unit_zero (S := S8x512x512) hz3, View.ld_unit_zero (S := S1x1) hz2]

/-- and the same word in the output block (it is the accumulator read back after its store). -/
theorem out_B (c : Dev nD) (i : grid0.Coords) (a1 : Memref sig .tc .vmem S8x512x512 .f32) (h1 : a1.IsWhole)
    (a2 : Memref sig .tc .vmem S8x512x512 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S8x512x512 .f32) (xs : Vec F S1x1 .f32) :
    out0_B_2 c i a1 h1 a2 h2 a3 h3 a4 h4 hc x0 x1 xs = step x0 x1 xs := by
  unfold out0_B_2
  rw [View.read_writes_eq_canon _ _ _ (cover0_B_2 c i a1 h1 a2 h2 a3 h3 a4 h4 hc x0 x1 xs)]
  unfold kernelRun0_B
  dsimp only
  sl_unfold_words
  rw [View.canon_unit_zero (S := S1x1) hz2, View.readCov_unit_zero (S := S1x1) _ hz2]
  simp only [View.readAt_eq_ld, h1.read_unread, h2.read_unread, h4.read_unread,
    View.ld_unit_zero (S := S8x512x512) hz3, View.ld_unit_zero (S := S1x1) hz2]

/-- The first step leaves `step` of the tiles and of the zero it has just stored in the accumulator. -/
theorem scratch_A (c : Dev nD) (i : grid0.Coords) (a1 : Memref sig .tc .vmem S8x512x512 .f32) (h1 : a1.IsWhole)
    (a2 : Memref sig .tc .vmem S8x512x512 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S8x512x512 .f32) :
    sout0_A_0 c i a1 h1 a2 h2 a3 h3 a4 h4 hc x0 x1 = step x0 x1 zero := by
  unfold sout0_A_0
  rw [View.read_writes_eq_canon _ _ _ (scover0_A_0 c i a1 h1 a2 h2 a3 h3 a4 h4 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread,
    View.ld_unit_zero (S := S8x512x512) hz3]

/-- and the same word in the output block. -/
theorem out_A (c : Dev nD) (i : grid0.Coords) (a1 : Memref sig .tc .vmem S8x512x512 .f32) (h1 : a1.IsWhole)
    (a2 : Memref sig .tc .vmem S8x512x512 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S8x512x512 .f32) :
    out0_A_2 c i a1 h1 a2 h2 a3 h3 a4 h4 hc x0 x1 = step x0 x1 zero := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero (S := S1x1) hz2,
    View.readCov_eq_canon_ld _ _ _ (fun y => ⟨_, List.mem_cons_self .., View.mem_set_unit_zero hz2 Facts₀.inb_S1x1_S1x1_0_0 y⟩),
    View.canon_cons_unit_zero (S := S1x1) hz2, View.ld_unit_zero (S := S1x1) hz2,
    View.readCov_unit_zero (S := S1x1) _ hz2]
  simp only [View.readAt_eq_ld, h1.read_unread, h2.read_unread,
    View.ld_unit_zero (S := S8x512x512) hz3]

end Cert.KernelIdeal.Acc

end
-- ==== Proof.KRun.lean ====
/-
  The running sum over the eight grid steps, and the run of the whole program read through it.

  `acc n` is the accumulator after step `n`: one `step` from zero over the first pair of tiles, then one `step` per
  later pair of tiles from the accumulator before.  By induction on the step, what the generated frame run names as
  the contents of the output block and of the accumulator after step `n` is `acc n` in both.  The output's one block
  is its whole one-word array and is written back after the last step only, so the array ends at `acc 7`.  The lines
  of the program after the kernel reshape that word to a scalar, divide it by the two constants and square the
  quotient (`tail`); the program's result is `tail` of `acc 7`, and its arguments end unchanged.
-/
import proofs.«159642_j74844100100229_1_alg».proof.Proof.KCases
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The accumulator after step `n`. -/
def acc (c : Dev nD) : (n : ℕ) → n < cfg0.N → Vec F S1x1 .f32
  | 0, h => step (iblk m c 0 ⟨0, h⟩) (iblk m c 1 ⟨0, h⟩) zero
  | n + 1, h => step (iblk m c 0 ⟨n + 1, h⟩) (iblk m c 1 ⟨n + 1, h⟩) (acc c n (Nat.lt_of_succ_lt h))

/-- After step `n` the output block and the accumulator both hold `acc n`: by induction on the step. -/
theorem outsAt_eq (c : Dev nD) : ∀ (n : ℕ) (h : n < cfg0.N), outsAt0 m c n h = (acc m c n h, acc m c n h)
  | 0, h => by
    rw [outsAt0_A m c ⟨0, h⟩ rfl, out_A, scratch_A]
    rfl
  | n + 1, h => by
    have hN : cfg0.N = 8 := N_0
    have hB : ¬(⟨n + 1, h⟩ : Fin cfg0.N).val % 8 = 0 := by dsimp only; omega
    rw [outsAt0_B m c ⟨n + 1, h⟩ hB, out_B, scratch_B]
    show (step _ _ (outsAt0 m c n _).2, step _ _ (outsAt0 m c n _).2) = _
    rw [outsAt_eq c n]
    rfl

/-- The last grid step. -/
abbrev tLast : Fin cfg0.N := ⟨7, by rw [show cfg0.N = 8 from N_0]; decide⟩

/-- The kernel's result: the accumulator after the last step, as contents of its one-word array. -/
abbrev result (c : Dev nD) : Buf (Elt F) ((c : Thread nD τ).loc main_v2) := acc m c 7 tLast.isLt

/-- The one write-back, after the last step, writes it: the block at offset zero of a one-word array is the array. -/
theorem flushed_eq (c : Dev nD) (t : Fin cfg0.N) (hf : (cfg0.win 2).flush t = true) :
    (dats m 0 c).flushed 2 t = ((cfg0.win 2).blk t).view.read (Elt F) (result m c) := by
  have hN : cfg0.N = 8 := N_0
  have h7 : t.val = 7 := by have := (flush0_2 t).mp hf; have := t.isLt; omega
  obtain rfl : t = tLast := Fin.ext h7
  show (cfg0.win 2).cut (grid0.coords tLast) ((dats m 0 c).after 2 tLast) = _
  rw [after0_2, outsAt_eq]
  have hz' : (fun a => win0_2.index tLast a * main_v2.ty.shape.size a) = fun _ => 0 := funext fun a => by fin_cases a <;> decide
  exact (Memref.read_access_unit_zero (Elt F) main_v2 hz' (fun a => by rw [congrFun hz' a]; simp) (result m c)).symm

/-- So the kernel's array ends holding the accumulator after the last step. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The lines after the kernel, as one function of the kernel's one-word result: the word as a scalar, divided by
    the two constants, squared. -/
def tail (a : FVec F S1x1 .f32) : FVec F S_ .f32 :=
  mulf (Host.divf (Host.divf (shapeCast S_ a Facts₀.shapeCasts_S1x1_S_) (constant (F := F) S_ .f32 0x48800000#32)) (constant (F := F) S_ .f32 0x42800000#32))
    (Host.divf (Host.divf (shapeCast S_ a Facts₀.shapeCasts_S1x1_S_) (constant (F := F) S_ .f32 0x48800000#32)) (constant (F := F) S_ .f32 0x42800000#32))

/-- The program's result buffer after the lines that follow the kernel. -/
theorem tail_eq (c : Dev nD) :
    Pipeline.afterTail₀ cfgs (dats m) 0 (V0 m) [hostOps1] c main_v6 = tail (result m c) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v2)
      = result m c := (Pipeline.withArrays_arr spec0 launch0.win.arr_inj c _ _ 2).trans (final m c)
  rw [e]
  rfl

/-- The run, read: the program's result is `tail` of the accumulator after the last step, and the two argument
    arrays end as they were. -/
theorem run : θ_run defs (onTc (τ := τ) (main (F := F))) ⟨m, fun _ => 0, ρ⟩ fun r => ∀ c : Dev nD,
      r.2.mem ((c.tc : Thread nD τ).loc main_v6) = tail (result m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Acc

end
-- ==== Proof.Spec.lean ====
/-
  The mean-squared-difference loss as one function on the extended reals.

  Two batches of 64 images of 512 x 512 pixels, `d` and `e`.  At a pixel `i` the squared difference is
  `(d i - e i) * (d i - e i)`; `total d e` is its sum over all 64 * 512 * 512 pixels; the loss divides the total by
  the number of pixels of one image (262144) and then by the batch size (64), and squares the quotient.  Both
  divisors stay the float words the two programs spell (the same words on both sides), read at the extended reals.

  The batch is also cut into eight tiles of eight images; `pix t j` is the place in the batch of pixel `j` of tile
  `t`: image `8 * t + j 0`, row `j 1`, column `j 2`.
-/
import Idealize.ShloMosaic.PureOps.Ideal.Laws
import Idealize.ShloMosaic.Lib.ValueIdx

noncomputable section

open scoped BigOperators

namespace Cert.Mse

open Idealize.ShloMosaic Idealize.ShloMosaic.ValueIdx

/-- The batch of images: 64 images of 512 rows and 512 columns. -/
abbrev Img : Shape := ⟨3, ![64, 512, 512]⟩
/-- One tile: eight consecutive images. -/
abbrev Tile : Shape := ⟨3, ![8, 512, 512]⟩

/-- The squared difference of the two batches at a pixel. -/
def sq (d e : Img.Idx → EReal) (i : Img.Idx) : EReal := (d i - e i) * (d i - e i)

/-- The sum of the squared differences over every pixel of the batch. -/
def total (d e : Img.Idx → EReal) : EReal := ∑ i : Img.Idx, sq d e i

/-- The divisor 262144 = 512 * 512, as the float word both programs spell. -/
abbrev perImage : EReal := Ideal.ofBits .f32 0x48800000#32
/-- The divisor 64, as the float word both programs spell. -/
abbrev perBatch : EReal := Ideal.ofBits .f32 0x42800000#32

/-- The total divided by the pixels of an image and by the batch size. -/
def mean (T : EReal) : EReal := Ideal.div (Ideal.div T perImage) perBatch

/-- The loss: the square of the mean. -/
def loss (T : EReal) : EReal := mean T * mean T

/-- Pixel `j` of tile `t`, as a pixel of the batch: image `8 * t + j 0`, row `j 1`, column `j 2`. -/
def pix (t : Fin 8) (j : Tile.Idx) : Img.Idx :=
  ix3 (⟨8 * t.val + (j 0).val, by have h0 : (j 0).val < 8 := (j 0).isLt; have := t.isLt; omega⟩ : Fin 64) (j 1) (j 2)

end Cert.Mse

end
-- ==== Proof.LibIdx3Sum.lean ====
/-
  A sum over the indices of a three-axis array is the triple sum over its coordinates.

  The index set of an array [n0, n1, n2] is in bijection with Fin n0 x Fin n1 x Fin n2, each index being the triple
  of its coordinates; re-indexing a finite sum through a bijection does not change it, and a sum over a product is
  the iterated sum.  Holds in any commutative additive monoid.
-/
import Idealize.ShloMosaic.Lib.ValueIdx

namespace Cert.Lib.Idx3Sum

open Idealize.ShloMosaic Idealize.ShloMosaic.ValueIdx

/-- An index of a three-axis array is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a three-axis array, in any commutative additive monoid, is the iterated sum over the
    three coordinates of the summand at the index with those coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.Idx3Sum
-- ==== Proof.LibBlockSum.lean ====
/-
  Regrouping a long sum into consecutive blocks.

  A sum of `B * n` terms `f 0, f 1, …` can be taken block by block: first the `B` terms of block `0`, then the `B`
  terms of block `1`, and so on, block `s` holding the terms `f (B * s + k)` for `k < B`. Only associativity and
  commutativity of the addition are used, so the statements hold in any commutative additive monoid — in particular
  on the extended reals, where no finiteness is needed.
-/
import Idealize.ShloMosaic.Lib.ValueIdx

namespace BlockSum

open Finset

variable {β : Type*} [AddCommMonoid β]

/-- The first `n` blocks of `B` consecutive terms, summed block by block, are the first `B * n` terms. -/
theorem sum_range_blocks (f : ℕ → β) (B : ℕ) :
    ∀ n : ℕ, ∑ s ∈ range n, ∑ k ∈ range B, f (B * s + k) = ∑ K ∈ range (B * n), f K
  | 0 => by rw [Nat.mul_zero, sum_range_zero, sum_range_zero]
  | n + 1 => by
    rw [sum_range_succ, sum_range_blocks f B n, Nat.mul_succ, sum_range_add]

/-- The same with the position inside a block and the position in the whole sum running over `Fin` types: `n`
    blocks of `B` terms make up a sum of `N = B * n` terms. -/
theorem sum_fin_blocks (f : ℕ → β) (B n N : ℕ) (h : N = B * n) :
    ∑ s ∈ range n, ∑ k : Fin B, f (B * s + k.val) = ∑ K : Fin N, f K.val := by
  subst h
  rw [Fin.sum_univ_eq_sum_range (fun K => f K) (B * n), ← sum_range_blocks f B n]
  exact sum_congr rfl fun s _ => Fin.sum_univ_eq_sum_range (fun k => f (B * s + k)) B

end BlockSum
-- ==== Proof.Tiles.lean ====
/-
  The batch sum, taken tile by tile.

  The 64 images of the batch are cut into eight tiles of eight consecutive images.  The sum of the squared
  differences over all pixels of the batch is the sum, over the tiles, of the sum over the pixels of each tile:
  a sum over the indices of a three-axis array is the triple sum over its coordinates; the sum over the 64 images
  is taken in eight consecutive blocks of eight; and image `k` of tile `t` is image `8 * t + k` of the batch.
  Only commutativity and associativity of the addition are used, so nothing is assumed finite.
-/
import proofs.«159642_j74844100100229_1_alg».proof.Proof.Spec
import proofs.«159642_j74844100100229_1_alg».proof.Proof.LibIdx3Sum
import proofs.«159642_j74844100100229_1_alg».proof.Proof.LibBlockSum

noncomputable section

open scoped BigOperators

namespace Cert.Mse

open Idealize.ShloMosaic Idealize.ShloMosaic.ValueIdx

/-- The sum of the squared differences over the pixels of image `K` of the batch, as a function of a natural
    number: zero from 64 on, where there is no image. -/
def imageSum (d e : Img.Idx → EReal) (K : ℕ) : EReal :=
  if h : K < 64 then ∑ r : Fin 512, ∑ c : Fin 512, sq d e (ix3 (⟨K, h⟩ : Fin 64) r c) else 0

/-- At an image of the batch, `imageSum` is that image's sum. -/
theorem imageSum_fin (d e : Img.Idx → EReal) (a : Fin 64) :
    imageSum d e a.val = ∑ r : Fin 512, ∑ c : Fin 512, sq d e (ix3 a r c) := by
  unfold imageSum
  rw [dif_pos a.isLt]

/-- The sum over the pixels of tile `t` is the sum of the eight image sums of its images `8 * t + k`. -/
theorem tile_sum (d e : Img.Idx → EReal) (t : Fin 8) :
    ∑ j : Tile.Idx, sq d e (pix t j) = ∑ k : Fin 8, imageSum d e (8 * t.val + k.val) := by
  rw [Cert.Lib.Idx3Sum.sum_idx3 (fun j : Tile.Idx => sq d e (pix t j))]
  refine Finset.sum_congr rfl fun k _ => ?_
  have hk : 8 * t.val + k.val < 64 := by have := t.isLt; have := k.isLt; omega
  unfold imageSum
  rw [dif_pos hk]
  rfl

/-- The sum over the tiles of the sums over each tile's pixels is the sum over every pixel of the batch. -/
theorem total_tiles (d e : Img.Idx → EReal) :
    ∑ t : Fin 8, ∑ j : Tile.Idx, sq d e (pix t j) = total d e := by
  unfold total
  rw [Cert.Lib.Idx3Sum.sum_idx3 (fun i : Img.Idx => sq d e i)]
  rw [Finset.sum_congr rfl fun (a : Fin 64) _ => (imageSum_fin d e a).symm]
  rw [← BlockSum.sum_fin_blocks (imageSum d e) 8 8 64 rfl]
  rw [← Fin.sum_univ_eq_sum_range (fun s => ∑ k : Fin 8, imageSum d e (8 * s + k.val)) 8]
  exact Finset.sum_congr rfl fun t _ => tile_sum d e t

end Cert.Mse

end
-- ==== Proof.LibReshapeSum.lean ====
/-
  A reshape keeps the sum of a vector's entries.

  A reshape between two shapes of the same number of entries reads each entry of its operand exactly once (it is
  composition with a bijection of the two index sets), so the sum of the reshaped vector over its index set is the
  sum of the operand over its own — in any commutative monoid, for any two shapes (`sum_shapeCast`). At the
  extended reals a lane reduction `<add>` from the zero word into a shape whose axes all have extent one is the sum
  of every entry of its source; applied to a reshaped vector it is therefore the sum of every entry of the vector
  before the reshape (`multiReduction_add_shapeCast_total`) — the shape a body's `jnp.sum` of a whole block takes
  when it is lowered through a leading unit axis.
-/
import Idealize.ShloMosaic.PureOps.Ideal.Laws

noncomputable section

open scoped BigOperators

namespace Cert.LibReshapeSum

open Idealize.ShloMosaic

/-- A reshape permutes the entries, so it keeps their sum. -/
theorem sum_shapeCast {s t : Shape} {M : Type} [AddCommMonoid M] (v : s.Idx → M) (h : s.ShapeCasts t) :
    ∑ i : t.Idx, shapeCast t v h i = ∑ j : s.Idx, v j :=
  Equiv.sum_comp (Shape.reshapeEquiv h) v

/-- At the extended reals, the `<add>` lane reduction of a reshaped vector into a shape of unit axes is, at its one
    index, the sum of all the entries of the vector before the reshape. -/
theorem multiReduction_add_shapeCast_total {s s' t : Shape} {φ : FTy} {axes : List (Fin s'.rank)} (v : FVec Ideal s φ)
    (hc : s.ShapeCasts s') (acc : BitVec φ.bits) (h : s'.Reduces axes t) (ht : ∀ b, t.size b = 1)
    (hφ : FKind.Formats φ) (hacc : acc = FKind.add.neutral φ hφ) (j : t.Idx) :
    multiReduction .add axes t (shapeCast s' v hc) acc h hφ hacc j = ∑ i : s.Idx, v i :=
  (Ideal.multiReduction_add_total (shapeCast s' v hc) acc h ht hφ hacc j).trans (sum_shapeCast v hc)

end Cert.LibReshapeSum

end
-- ==== Proof.KIdeal.lean ====
/-
  The kernel's result on the extended reals: the loss of the total squared difference.

  On the extended reals one step adds to the accumulator the sum, over the pixels of the two tiles it is given, of the
  squared differences: the lane sum of the reshaped tile of squares is the sum of all its entries, whatever the
  reshape, and the word it is read through has a single index.  The tiles of step `t` are the images
  `8 * t, …, 8 * t + 7` of the two batches the program reshaped its arguments to (`den`, `img`), so the step adds
  the squared differences over the pixels `pix t j` of the batch.  By induction the accumulator after step `n` is the
  sum over the tiles `0, …, n` (the reset's zero word is the real zero), after the last step the sum over all eight
  tiles, which is the sum over every pixel of the batch.  The lines after the kernel divide that total by the two
  constants and square: the loss.
-/
import proofs.«159642_j74844100100229_1_alg».proof.Proof.KRun
import proofs.«159642_j74844100100229_1_alg».proof.Proof.Spec
import proofs.«159642_j74844100100229_1_alg».proof.Proof.Tiles
import proofs.«159642_j74844100100229_1_alg».proof.Proof.LibReshapeSum
import Idealize.ShloMosaic.Lib.ValueIdx

noncomputable section

open Idealize.ShloMosaic Idealize.ShloMosaic.TcCoe Idealize.SL.Sem
open Idealize.ShloMosaic.Pipeline (Dat)

open scoped BigOperators

namespace Cert.KernelIdeal.Acc

open Cert.KernelIdeal Cert.KernelIdeal.Gen Cert.Mse Idealize.ShloMosaic.ValueIdx

variable (m : (ℓ : Loc nD τ sig) → Buf (Elt Ideal) ℓ)

/-- One step adds the sum over the tile's pixels of the squared differences of the two tiles. -/
theorem step_apply (x0 x1 : Vec Ideal S8x512x512 .f32) (a : Vec Ideal S1x1 .f32) (y : S1x1.Idx) :
    step (F := Ideal) x0 x1 a y = a y + ∑ j : S8x512x512.Idx, (x0 j - x1 j) * (x0 j - x1 j) := by
  show k0_pay2 x0 x1 a y = _
  unfold k0_pay2
  simp only [shapeCast_self]
  rw [addf_apply, broadcast_apply]
  refine congrArg (a y + ·) ?_
  show multiReduction FKind.add [1, 2, 3] S1
      (shapeCast S1x8x512x512 (mulf (F := Ideal) (subf (F := Ideal) x0 x1) (subf (F := Ideal) x0 x1)) Facts₀.shapeCasts_S8x512x512_S1x8x512x512) (0x00000000#32)
      Facts₀.reduces_S1x8x512x512_S1 (.inl rfl) rfl
      (Shape.reshapeEquiv Facts₀.shapeCasts_S1_S1x1x1x1 fun b => ⟨![0, 0, 0, 0] b, Facts₀.inpos_S1x1x1x1_p0_0_0_0 b⟩) = _
  refine (Cert.LibReshapeSum.multiReduction_add_shapeCast_total (mulf (F := Ideal) (subf (F := Ideal) x0 x1) (subf (F := Ideal) x0 x1))
      Facts₀.shapeCasts_S8x512x512_S1x8x512x512 (0x00000000#32) Facts₀.reduces_S1x8x512x512_S1
      (fun b => by match b with | ⟨0, _⟩ => rfl) (.inl rfl) rfl _).trans ?_
  exact Finset.sum_congr rfl fun j _ => rfl

/-- The reset's word is the real zero. -/
theorem zero_apply (y : S1x1.Idx) : zero (F := Ideal) y = 0 := by
  show k0_pay1 (F := Ideal) y = _
  unfold k0_pay1
  simp only [shapeCast_self]
  exact Ideal.ofBits_zero_f32

/-- The first batch as the kernel finds it: the first argument read as 64 images. -/
abbrev den (c : Dev nD) : Img.Idx → EReal :=
  shapeCast Img (m ((c : Thread nD τ).loc main_arg0)) Facts₀.shapeCasts_S64x1x512x512_S64x512x512
/-- The second batch: the second argument read as 64 images. -/
abbrev img (c : Dev nD) : Img.Idx → EReal :=
  shapeCast Img (m ((c : Thread nD τ).loc main_arg1)) Facts₀.shapeCasts_S64x1x512x512_S64x512x512

/-- The arrays the kernel's two input windows read are those reshaped arguments. -/
theorem V_v0 (c : Dev nD) : (V m c main_v0 : S64x512x512.Idx → EReal) = den m c := by
  show StableHlo.after hostOps0 (fun b => m (c, b)) (Proc.devRef .tc main_v0) = _
  after_results
  rfl
theorem V_v1 (c : Dev nD) : (V m c main_v1 : S64x512x512.Idx → EReal) = img m c := by
  show StableHlo.after hostOps0 (fun b => m (c, b)) (Proc.devRef .tc main_v1) = _
  after_results
  rfl

/-- Pixel `j` of the first window's tile at step `t` is pixel `pix t j` of the first batch: the tile starts at image
    `8 * t` and at row and column zero. -/
theorem iblk0_apply (c : Dev nD) (t : Fin cfg0.N) (j : Tile.Idx) :
    (iblk m c 0 t : Vec Ideal S8x512x512 .f32) j = den m c (pix (Fin.cast N_0 t) j) := by
  have hi : ∀ t : Fin cfg0.N, win0_0.index t 0 = t.val ∧ win0_0.index t 1 = 0 ∧ win0_0.index t 2 = 0 :=
    (by decide +kernel : ∀ t : Fin grid0.N, win0_0.index t 0 = t.val ∧ win0_0.index t 1 = 0 ∧ win0_0.index t 2 = 0)
  rw [← V_v0]
  unfold iblk
  rw [View.read_apply]
  show V m c main_v0 _ = V m c main_v0 _
  congr 1
  funext a
  apply Fin.ext
  match a with
  | ⟨0, _⟩ => show win0_0.index t 0 * 8 + 1 * (j 0).val = 8 * t.val + (j 0).val; rw [(hi t).1]; omega
  | ⟨1, _⟩ => show win0_0.index t 1 * 512 + 1 * (j 1).val = (j 1).val; rw [(hi t).2.1]; omega
  | ⟨2, _⟩ => show win0_0.index t 2 * 512 + 1 * (j 2).val = (j 2).val; rw [(hi t).2.2]; omega

/-- The same for the second window and the second batch. -/
theorem iblk1_apply (c : Dev nD) (t : Fin cfg0.N) (j : Tile.Idx) :
    (iblk m c 1 t : Vec Ideal S8x512x512 .f32) j = img m c (pix (Fin.cast N_0 t) j) := by
  have hi : ∀ t : Fin cfg0.N, win0_1.index t 0 = t.val ∧ win0_1.index t 1 = 0 ∧ win0_1.index t 2 = 0 :=
    (by decide +kernel : ∀ t : Fin grid0.N, win0_1.index t 0 = t.val ∧ win0_1.index t 1 = 0 ∧ win0_1.index t 2 = 0)
  rw [← V_v1]
  unfold iblk
  rw [View.read_apply]
  show V m c main_v1 _ = V m c main_v1 _
  congr 1
  funext a
  apply Fin.ext
  match a with
  | ⟨0, _⟩ => show win0_1.index t 0 * 8 + 1 * (j 0).val = 8 * t.val + (j 0).val; rw [(hi t).1]; omega
  | ⟨1, _⟩ => show win0_1.index t 1 * 512 + 1 * (j 1).val = (j 1).val; rw [(hi t).2.1]; omega
  | ⟨2, _⟩ => show win0_1.index t 2 * 512 + 1 * (j 2).val = (j 2).val; rw [(hi t).2.2]; omega

/-- The sum of the squared differences over the pixels of tile `k` of the two batches; zero past the last tile. -/
def tileSum (c : Dev nD) (k : ℕ) : EReal :=
  if h : k < cfg0.N then ∑ j : Tile.Idx, sq (den m c) (img m c) (pix (Fin.cast N_0 ⟨k, h⟩) j) else 0

/-- What one step adds at step `k` is tile `k`'s sum. -/
theorem step_tile (c : Dev nD) (k : ℕ) (h : k < cfg0.N) (a : Vec Ideal S1x1 .f32) (y : S1x1.Idx) :
    step (F := Ideal) (iblk m c 0 ⟨k, h⟩) (iblk m c 1 ⟨k, h⟩) a y = a y + tileSum m c k := by
  refine (step_apply (iblk m c 0 ⟨k, h⟩) (iblk m c 1 ⟨k, h⟩) a y).trans ?_
  refine congrArg (a y + ·) ?_
  unfold tileSum
  rw [dif_pos h]
  refine Finset.sum_congr rfl fun j _ => ?_
  rw [iblk0_apply m c ⟨k, h⟩ j, iblk1_apply m c ⟨k, h⟩ j]
  rfl

/-- The accumulator after step `n` is the sum of the tile sums `0, …, n`. -/
theorem acc_apply (c : Dev nD) (y : S1x1.Idx) :
    ∀ (n : ℕ) (h : n < cfg0.N), acc m c n h y = ∑ k ∈ Finset.range (n + 1), tileSum m c k
  | 0, h => by
    show step (F := Ideal) (iblk m c 0 ⟨0, h⟩) (iblk m c 1 ⟨0, h⟩) (zero (F := Ideal)) y = _
    rw [step_tile, zero_apply, zero_add, Finset.sum_range_one]
  | n + 1, h => by
    show step (F := Ideal) (iblk m c 0 ⟨n + 1, h⟩) (iblk m c 1 ⟨n + 1, h⟩) (acc m c n (Nat.lt_of_succ_lt h)) y = _
    rw [step_tile, acc_apply c y n, ← Finset.sum_range_succ]

/-- After the last step the accumulator holds the total squared difference of the two batches. -/
theorem result_apply (c : Dev nD) (y : S1x1.Idx) : result m c y = total (den m c) (img m c) := by
  show acc m c 7 tLast.isLt y = _
  rw [acc_apply, ← total_tiles, ← Fin.sum_univ_eq_sum_range (fun k => tileSum m c k) 8]
  refine Finset.sum_congr rfl fun t _ => ?_
  unfold tileSum
  rw [dif_pos (show t.val < cfg0.N from lt_of_lt_of_eq t.isLt N_0.symm)]
  rfl

/-- So the program's result is the loss of that total. -/
theorem value (c : Dev nD) : tail (F := Ideal) (result m c) = fun _ => loss (total (den m c) (img m c)) := by
  funext i
  unfold tail
  show Ideal.div (Ideal.div (result m c _) perImage) perBatch * Ideal.div (Ideal.div (result m c _) perImage) perBatch = _
  rw [result_apply]
  rfl

end Cert.KernelIdeal.Acc

end
-- ==== Proof.RefValue.lean ====
/-
  The value of the reference program, as the loss of the total squared difference.

  The reference subtracts the two batches, squares the difference, sums each image's pixels, divides each of the 64
  image sums by 262144, sums the 64 quotients, divides by 64 and squares.  The loss of `Cert.Mse` divides the sum
  over ALL pixels by 262144, then by 64, and squares.  The two agree on the extended reals, with no finiteness
  assumed of the inputs:

  * the divisor 262144 is a nonzero real, so dividing by it is multiplying by the real 1/262144;
  * every squared difference `x * x` is nonnegative on the extended reals (`⊥ * ⊥ = ⊤`), hence so is every sum of
    them, and multiplication by a fixed factor distributes over a finite sum of NONNEGATIVE extended reals;
  * the sum over the images of the sums over each image's pixels is the sum over all pixels (a sum taken fibre by
    fibre of the map sending a pixel to its image).
-/
import proofs.«159642_j74844100100229_1_alg».proof.Proof.Spec
import proofs.«159642_j74844100100229_1_alg».proof.Proof.Gen.ReferenceIdeal.Read

noncomputable section

open scoped BigOperators

namespace Cert.Mse

open Idealize.ShloMosaic Idealize.ShloMosaic.TcCoe Idealize.ShloMosaic.ValueIdx

/-- The square of an extended real is nonnegative: a real square is, and `⊥ * ⊥ = ⊤ * ⊤ = ⊤`. -/
theorem ereal_mul_self_nonneg (x : EReal) : 0 ≤ x * x := by
  induction x using EReal.rec with
  | bot => rw [EReal.bot_mul_bot]; exact le_top
  | coe r => rw [← EReal.coe_mul]; exact_mod_cast mul_self_nonneg r
  | top => rw [EReal.top_mul_top]; exact le_top

/-- Every squared difference is nonnegative. -/
theorem sq_diff_nonneg (d e : Img.Idx → EReal) (i : Img.Idx) : 0 ≤ sq d e i :=
  ereal_mul_self_nonneg _

/-- Multiplication by a fixed extended real distributes over a finite sum of nonnegative extended reals: on the
    extended reals `(a + b) * c = a * c + b * c` holds whenever `a` and `b` are nonnegative, and every partial sum
    of nonnegative terms is nonnegative. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => rw [Finset.sum_empty, Finset.sum_empty, zero_mul]
  | insert a s ha ih =>
    have hs : ∀ i ∈ s, 0 ≤ f i := fun i hi => hf i (Finset.mem_insert_of_mem hi)
    rw [Finset.sum_insert ha, Finset.sum_insert ha,
      EReal.right_distrib_of_nonneg (hf a (Finset.mem_insert_self a s)) (Finset.sum_nonneg hs), ih hs]

/-- The same over a whole finite index type. -/
theorem fintype_sum_mul_of_nonneg {ι : Type*} [Fintype ι] (f : ι → EReal) (hf : ∀ i, 0 ≤ f i) (c : EReal) :
    (∑ i, f i) * c = ∑ i, f i * c :=
  sum_mul_of_nonneg Finset.univ f (fun i _ => hf i) c

/-- The divisor word `0x48800000` is the real `262144 = 2 ^ 18`. -/
theorem perImage_eq : perImage = ((262144 : ℝ) : EReal) := by
  simp [Ideal.ofBits, Ideal.ieee, -EReal.coe_mul]; norm_num

/-- Dividing by the pixels of an image is multiplying by the real `1 / 262144`. -/
theorem div_perImage (x : EReal) : Ideal.div x perImage = x * ((1 / 262144 : ℝ) : EReal) := by
  rw [perImage_eq]
  exact Ideal.div_coe (by norm_num) x

/-- Dividing each fibre's sum and adding the quotients is dividing the whole sum: for any map `g` from the pixels to
    a finite set of labels, the sum over the labels `b` of (the sum of the squared differences at the pixels labelled
    `b`) / 262144 is (the sum over all pixels) / 262144. -/
theorem sum_div_fibres {κ : Type*} [Fintype κ] [DecidableEq κ] (d e : Img.Idx → EReal) (g : Img.Idx → κ) :
    ∑ b : κ, Ideal.div (∑ i ∈ Finset.univ.filter (fun i => g i = b), sq d e i) perImage
      = Ideal.div (total d e) perImage := by
  simp only [div_perImage]
  rw [← fintype_sum_mul_of_nonneg _ (fun b => Finset.sum_nonneg fun i _ => sq_diff_nonneg d e i)]
  unfold total
  rw [Finset.sum_fiberwise Finset.univ g (sq d e)]

/-- The reference program's result, at its one index, is the loss of the total squared difference of its two
    arguments read as batches of 64 images. -/
theorem ref_value (x0 x1 : (⟨Cert.ReferenceIdeal.S64x1x512x512, .f32⟩ : BufTy).Contents (Elt Ideal))
    (h : Cert.ReferenceIdeal.S64x1x512x512.ShapeCasts Img) :
    Cert.ReferenceIdeal.Read.val_main_v9 (F := Ideal) x0 x1
      = fun _ => loss (total (shapeCast Img x0 h) (shapeCast Img x1 h)) := by
  funext i
  -- the squared difference the reference forms at a pixel is `sq` of the two batches
  have h3 : ∀ p : Img.Idx, Cert.ReferenceIdeal.Read.val_main_v3 (F := Ideal) x0 x1 p
      = sq (shapeCast Img x0 h) (shapeCast Img x1 h) p := fun _ => rfl
  -- each image's sum: zero plus the sum over the pixels that drop to that image
  have h4 : ∀ b : Cert.ReferenceIdeal.S64.Idx, Cert.ReferenceIdeal.Read.val_main_v4 (F := Ideal) x0 x1 b
      = ∑ p ∈ Finset.univ.filter (fun p => (Cert.ReferenceIdeal.Gen.reducesTo_S64x512x512_S64_d1_2).drop p = b),
          sq (shapeCast Img x0 h) (shapeCast Img x1 h) p := by
    intro b
    show Ideal.hostReduceAdd _ _ (Ideal.ofBits .f32 0x00000000#32) b = _
    unfold Ideal.hostReduceAdd
    rw [Ideal.ofBits_zero_f32, zero_add]
    exact Finset.sum_congr rfl fun p _ => h3 p
  -- each image's quotient
  have h6 : ∀ b : Cert.ReferenceIdeal.S64.Idx, Cert.ReferenceIdeal.Read.val_main_v6 (F := Ideal) x0 x1 b
      = Ideal.div (∑ p ∈ Finset.univ.filter
          (fun p => (Cert.ReferenceIdeal.Gen.reducesTo_S64x512x512_S64_d1_2).drop p = b),
          sq (shapeCast Img x0 h) (shapeCast Img x1 h) p) perImage := by
    intro b
    rw [Cert.ReferenceIdeal.Read.val_main_v6_apply, Cert.ReferenceIdeal.Read.val_main_v5_apply,
      Cert.ReferenceIdeal.Read.val_main_cst_0_apply, h4 b]
    rfl
  -- the sum of the quotients, divided by the batch size
  have h8 : Cert.ReferenceIdeal.Read.val_main_v8 (F := Ideal) x0 x1 i
      = mean (total (shapeCast Img x0 h) (shapeCast Img x1 h)) := by
    rw [Cert.ReferenceIdeal.Read.val_main_v8_apply, Cert.ReferenceIdeal.Read.val_main_v7_apply,
      Cert.ReferenceIdeal.Read.val_main_cst_1_apply, Cert.ReferenceIdeal.Read.val_main_cst_2_apply]
    show Ideal.div (Ideal.ofBits .f32 0x00000000#32 + _) perBatch = _
    rw [Ideal.ofBits_zero_f32, zero_add, Finset.sum_congr rfl fun b _ => h6 b, sum_div_fibres]
    rfl
  rw [Cert.ReferenceIdeal.Read.val_main_v9_apply, h8]
  rfl

end Cert.Mse

end
-- ==== Proof.lean ====
/-
  The certificate's claims, assembled.

  The kernel sums the squared differences of two batches of 64 images (512 x 512 pixels each) in eight grid steps of
  eight images, keeping the running sum in a one-word accumulator; the lines after it divide the total by 262144 and
  by 64 and square the quotient.  The reference sums each image's squared differences, divides each of the 64 sums
  by 262144, adds the quotients, divides by 64 and squares.

  On the extended reals both are `loss (total d e)` of the two arguments read as batches `d`, `e` (Proof/Spec.lean):
  the kernel because its accumulator after the last step is the sum over all eight tiles, which is the sum over every
  pixel (Proof/KCases.lean, KRun.lean, KIdeal.lean, Tiles.lean); the reference because every squared difference is
  nonnegative, so dividing each image's sum and adding is dividing the whole sum (Proof/RefValue.lean).  No
  finiteness of the inputs is used.  The three frames are the generated frame runs (the reference's is its generated
  run with the result dropped); the idealization rewrote nothing, so the kernel's idealization is preserved trivially.
-/
import proofs.«159642_j74844100100229_1_alg».proof.Defs
import proofs.«159642_j74844100100229_1_alg».proof.Proof.Gen.Kernel
import proofs.«159642_j74844100100229_1_alg».proof.Proof.Gen.Kernel.Frame
import proofs.«159642_j74844100100229_1_alg».proof.Proof.Gen.KernelIdeal
import proofs.«159642_j74844100100229_1_alg».proof.Proof.Gen.KernelIdeal.Frame
import proofs.«159642_j74844100100229_1_alg».proof.Proof.Gen.ReferenceIdeal
import proofs.«159642_j74844100100229_1_alg».proof.Proof.Gen.ReferenceIdeal.Run
import proofs.«159642_j74844100100229_1_alg».proof.Proof.Gen.ReferenceIdeal.Read
import proofs.«159642_j74844100100229_1_alg».proof.Proof.Gen.Pre_finite_inputs
import proofs.«159642_j74844100100229_1_alg».proof.Proof.KIdeal
import proofs.«159642_j74844100100229_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result and the reference's are the loss of the total squared difference of
    arguments that agree. -/
theorem algebraic : Cert.algebraic_KernelIdeal_ReferenceIdeal := by
  intro m ρ m' ρ' _ hagree
  refine ⟨fun c => Cert.KernelIdeal.Acc.tail (F := Ideal) (Cert.KernelIdeal.Acc.result m c),
    Cert.KernelIdeal.Acc.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq,
    Cert.Mse.ref_value _ _ Cert.ReferenceIdeal.Facts₀.shapeCasts_S64x1x512x512_S64x512x512,
    (hagree c).1, (hagree c).2]
  exact (Cert.KernelIdeal.Acc.value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
